-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x128 : Shape := ⟨3, ![8192, 1, 128]⟩
abbrev S8192 : Shape := ⟨1, ![8192]⟩
abbrev S_ : Shape := ⟨0, ![]⟩

class Facts : Prop where
  bcast_S_S8192x1x128 : S_.BroadcastsInDim S8192x1x128 (![] : Fin 0 → Fin S8192x1x128.rank)
  reducesTo_S8192x1x128_S_d0_1_2 : S8192x1x128.ReducesTo [0, 1, 2] S_
  h_S_ : 0 < S_.numel

variable [Facts]

def fn {F : FTy → Type} [FloatOps F] (main_arg0 : FVec F S8192x1x128 .f32) (main_arg1 : IVec S8192 32) : IVec S_ 1 :=
  let main_v0 : FVec F S8192x1x128 .f32 := Host.absf main_arg0
  let main_cst : FVec F S_ .f32 := constant S_ .f32 0x7F800000#32
  let main_v1 : FVec F S8192x1x128 .f32 := broadcastInDim S8192x1x128 ![] bcast_S_S8192x1x128 main_cst
  let main_v2 : IVec S8192x1x128 1 := cmpf .olt main_v0 main_v1
  let main_c : IVec S_ 1 := constantI S_ 1 1#1
  let main_v3 : IVec S_ 1 := (fun x v => Host.reduce IntOp.andi x v reducesTo_S8192x1x128_S_d0_1_2 h_S_) main_v2 main_c
  main_v3
-- ==== Kernel.lean ====
abbrev S8192x1x128 : Shape := ⟨3, ![8192, 1, 128]⟩
abbrev S8192 : Shape := ⟨1, ![8192]⟩
abbrev S8192x128 : Shape := ⟨2, ![8192, 128]⟩
abbrev S8192x1 : Shape := ⟨2, ![8192, 1]⟩
abbrev S1x8192 : Shape := ⟨2, ![1, 8192]⟩
abbrev S128x1 : Shape := ⟨2, ![128, 1]⟩
abbrev S128x128 : Shape := ⟨2, ![128, 128]⟩
abbrev S128x8192 : Shape := ⟨2, ![128, 8192]⟩
abbrev S128 : Shape := ⟨1, ![128]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S8192x1x128, .f32⟩
  | .hbm, ⟨1, _⟩ => ⟨S8192, .i32⟩
  | .hbm, ⟨2, _⟩ => ⟨S8192x128, .f32⟩
  | .hbm, ⟨3, _⟩ => ⟨S8192x128, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .bf16⟩
  | .local _ .vmem, ⟨1, _⟩ => ⟨S128x1, .i32⟩
  | .local _ .vmem, ⟨2, _⟩ => ⟨S128x1, .i32⟩
  | .local _ .vmem, ⟨3, _⟩ => ⟨S1x8192, .i32⟩
  | .local _ .vmem, ⟨4, _⟩ => ⟨S128x1, .f32⟩
  | .local _ .vmem, ⟨5, _⟩ => ⟨S128x1, .f32⟩
  | _, _ => ⟨S8192x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1x128_S8192x128 : S8192x1x128.ShapeCasts S8192x128
  bitsLt_bf16_f32 : FTy.bits .bf16 < FTy.bits .f32
  shapeCasts_S8192_S8192x1 : S8192.ShapeCasts S8192x1
  shapeCasts_S8192_S1x8192 : S8192.ShapeCasts S1x8192
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x8192_d1_w32 : S128x8192.Iotas .tc 32 [1]
  iota_S128x1_d0_w32 : S128x1.Iotas .tc 32 [0]
  reduces_S128x8192_S128 : S128x8192.Reduces [1] S128
  shapeCasts_S128_S128x1 : S128.ShapeCasts S128x1
  natLt_1_32 : 1 < 32
  reducesTo_S8192x1_S_d0_1 : S8192x1.ReducesTo [0, 1] S_
  h_S_ : 0 < S_.numel
  dot_S128x128_S8192x128_S128x8192_1_1_0_0_n_n_wf : DotDims.WF S128x128 S8192x128 S128x8192 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_v1) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1x128 : Shape := ⟨3, ![8192, 1, 128]⟩
abbrev S8192 : Shape := ⟨1, ![8192]⟩
abbrev S8192x128 : Shape := ⟨2, ![8192, 128]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x8192 : Shape := ⟨2, ![128, 8192]⟩
abbrev S8192x2 : Shape := ⟨2, ![8192, 2]⟩

abbrev nBuf : Space → Nat
  | .hbm => 65
  | .vmem => 0
  | .smem => 0
  | _ => 0

abbrev bufTy : (tb : Table) → Fin (tcTables nBuf tb) → BufTy
  | .hbm, ⟨0, _⟩ => ⟨S8192x1x128, .f32⟩
  | .hbm, ⟨1, _⟩ => ⟨S8192, .i32⟩
  | .hbm, ⟨2, _⟩ => ⟨S8192x128, .f32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1, .i32⟩
  | .hbm, ⟨39, _⟩ => ⟨S8192x2, .i32⟩
  | .hbm, ⟨40, _⟩ => ⟨S_, .f32⟩
  | .hbm, ⟨41, _⟩ => ⟨S8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8192x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  shapeCasts_S8192x1x128_S8192x128 : S8192x1x128.ShapeCasts S8192x128
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  dot_S8192x128_S128x8192_S8192x8192_1_0_0_1_n_n_wf : DotDims.WF S8192x128 S128x8192 S8192x8192 [1] [0] [0] [1] [] []
  scatter_S8192x8192_S8192x2_S8192_n_01_01_1_wf : ScatterDims.WF S8192x8192 S8192x2 S8192 [] [0, 1] [0, 1] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Spec.lean ====
/-
  The row-wise contrastive loss both programs compute, written once over the extended reals.

  For features `X i d` (8192 rows of 128) and integer labels `lab i`:
    sim i j     = Σ_d X i d · X j d                      (the similarity of rows i and j)
    logit i j   = sim i j · β                             (β the reciprocal of the temperature)
    negSum i    = Σ_{j : lab j ≠ lab i} exp (logit i j)   (the row's negatives)
    logProb i j = logit i j − log (exp (logit i j) + negSum i)
    num i       = Σ_{j ≠ i, lab j = lab i} logProb i j ,  den i = #{j ≠ i, lab j = lab i}
    rowLoss i   = c · (num i / den i) ,                   loss = (0 + Σ_i rowLoss i) / 8192 .
  No row maximum is subtracted here: `logProb` is invariant under a common finite shift of a row's logits.
-/
import Idealize.ShloMosaic.PureOps.Ideal
import Idealize.ShloMosaic.Lib.ValueIdx

noncomputable section

namespace Cert.Contrast

open Idealize.ShloMosaic

/-- The reciprocal of the temperature: the exact reciprocal of the binary number the reference divides by. -/
def beta : EReal := ((134217728 / 13421773 : ℝ) : EReal)

/-- The factor −(temperature / base temperature), the same binary number in both programs. -/
def scale : EReal := Ideal.ofBits .f32 0xBFB6DB6E#32

variable (X : Fin 8192 → Fin 128 → EReal) (lab : Fin 8192 → BitVec 32)

def sim (i j : Fin 8192) : EReal := ∑ d : Fin 128, X i d * X j d

def logit (i j : Fin 8192) : EReal := sim X i j * beta

def negSum (i : Fin 8192) : EReal := ∑ j : Fin 8192, if lab i = lab j then 0 else Ideal.exp (logit X i j)

def logProb (i j : Fin 8192) : EReal := logit X i j - Ideal.log (Ideal.exp (logit X i j) + negSum X lab i)

def num (i : Fin 8192) : EReal := ∑ j : Fin 8192, if lab i = lab j ∧ j ≠ i then logProb X lab i j else 0

def den (i : Fin 8192) : EReal := ∑ j : Fin 8192, if lab i = lab j ∧ j ≠ i then (1 : EReal) else 0

def rowLoss (i : Fin 8192) : EReal := scale * Ideal.div (num X lab i) (den lab i)

def loss : EReal := Ideal.div (0 + ∑ i : Fin 8192, rowLoss X lab i) (Ideal.ofBits .f32 0x46000000#32)

end Cert.Contrast

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.KerPay.lean ====
/-
  The kernel body's arithmetic read at an index.

  At one grid point the body holds a tile of 128 query rows and all 8192 key rows. Its result at local row r is the
  row loss of the global row g: the similarities of row g with every row scaled by the reciprocal temperature, the
  row's negatives summed, the log-probabilities of the positives other than g itself summed and divided by their
  number, times the fixed scale. The diagonal is recognised by comparing the column number with the global row number.
-/
import proofs.«169283_j10625749090671_2_alg».proof.Proof.Gen.KernelIdeal.Skeleton
import proofs.«169283_j10625749090671_2_alg».proof.Proof.Spec
import proofs.«169283_j10625749090671_2_alg».proof.Proof.LibKeepdims
import proofs.«169283_j10625749090671_2_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.Contrast.KerPay

open Idealize.ShloMosaic Idealize.ShloMosaic.ValueIdx Cert.KernelIdeal Cert.KernelIdeal.Gen Cert.Contrast

variable [Cert.KernelIdeal.Facts]

/-- A sum along the 8192 columns of a 128 × 8192 array, at row r. -/
theorem rowsum_apply (src : FVec Ideal S128x8192 .f32) (h : S128x8192.Reduces [1] S128) (r : Fin 128) :
    multiReduction .add [1] S128 src 0x00000000#32 h (.inl rfl) rfl (ix1 r) = ∑ k : Fin 8192, src (ix2 r k) :=
  (Ideal.multiReduction_add_single src 0x00000000#32 h (.inl rfl) rfl (ix1 r)).trans
    (Finset.sum_congr rfl fun k _ => congrArg src (funext fun a => match a with
      | ⟨0, _⟩ => Fin.ext rfl
      | ⟨1, _⟩ => Fin.ext rfl))

/-- The named reciprocal temperature is β. -/
theorem inv_t_eq : Named.named (F := Ideal) Cert.KernelIdeal.κ "inv_t" (φ := .f32) 0x41200000#32 = beta :=
  IdealRules.named_const.ideal_named_scalar _ _ _ _ rfl

theorem lhs0 (i : S128x8192.Idx) (q : dot_S128x128_S8192x128_S128x8192_1_1_0_0_n_n.contr.Idx) :
    (dot_S128x128_S8192x128_S128x8192_1_1_0_0_n_n.lhsIdx i q 0).val = (i 0).val := by
  unfold DotDims.lhsIdx
  rw [dif_neg (show ¬(0 : Fin S128x128.rank) ∈ dot_S128x128_S8192x128_S128x8192_1_1_0_0_n_n.lhsBatch by decide), dif_pos (show (0 : Fin S128x128.rank) ∈ dot_S128x128_S8192x128_S128x8192_1_1_0_0_n_n.lhsNonContracting by decide)]
  rfl
theorem lhs1 (i : S128x8192.Idx) (q : dot_S128x128_S8192x128_S128x8192_1_1_0_0_n_n.contr.Idx) :
    (dot_S128x128_S8192x128_S128x8192_1_1_0_0_n_n.lhsIdx i q 1).val = (q ⟨0, by decide⟩).val :=
  dot_S128x128_S8192x128_S128x8192_1_1_0_0_n_n.lhsIdx_val_of_single rfl i q
theorem rhs0 (i : S128x8192.Idx) (q : dot_S128x128_S8192x128_S128x8192_1_1_0_0_n_n.contr.Idx) :
    (dot_S128x128_S8192x128_S128x8192_1_1_0_0_n_n.rhsIdx i q 0).val = (i 1).val := by
  unfold DotDims.rhsIdx
  rw [dif_neg (show ¬(0 : Fin S8192x128.rank) ∈ dot_S128x128_S8192x128_S128x8192_1_1_0_0_n_n.rhsBatch by decide), dif_pos (show (0 : Fin S8192x128.rank) ∈ dot_S128x128_S8192x128_S128x8192_1_1_0_0_n_n.rhsNonContracting by decide)]
  rfl
theorem rhs1 (i : S128x8192.Idx) (q : dot_S128x128_S8192x128_S128x8192_1_1_0_0_n_n.contr.Idx) :
    (dot_S128x128_S8192x128_S128x8192_1_1_0_0_n_n.rhsIdx i q 1).val = (q ⟨0, by decide⟩).val :=
  dot_S128x128_S8192x128_S128x8192_1_1_0_0_n_n.rhsIdx_val_of_single rfl i q

variable (X : Fin 8192 → Fin 128 → EReal) (lab : Fin 8192 → BitVec 32)

/-- The scaled similarity of local row r (global row g) with row j. -/
theorem logits_apply (v3 : FVec Ideal S128x128 .bf16) (v5 : FVec Ideal S8192x128 .bf16)
    (h1 : S128x128.ShapeCasts S128x128) (h2 : S8192x128.ShapeCasts S8192x128) (g : Fin 8192) (r : Fin 128) (j : Fin 8192)
    (h3 : ∀ d : Fin 128, v3 (ix2 r d) = X g d) (h5 : ∀ (j : Fin 8192) (d : Fin 128), v5 (ix2 j d) = X j d) :
    mulf (matmul dot_S128x128_S8192x128_S128x8192_1_1_0_0_n_n none (shapeCast S128x128 v3 h1) (shapeCast S8192x128 v5 h2) (constant S128x8192 .f32 0x00000000#32))
      (broadcast S128x8192 (Named.named Cert.KernelIdeal.κ "inv_t" 0x41200000#32)) (ix2 r j) = logit X g j := by
  rw [mulf_apply, broadcast_apply, shapeCast_self, shapeCast_self, inv_t_eq]
  unfold logit sim
  congr 1
  refine (Cert.LibMatmul.matmul_zero_sum1 dot_S128x128_S8192x128_S128x8192_1_1_0_0_n_n none 128 rfl rfl v3 v5 (ix2 r j)
    (fun k => ix2 r k) (fun k => ix2 j k) (fun q k hk => ?_) (fun q k hk => ?_)).trans ?_
  · exact funext fun a => Fin.ext (by
      match a with
      | ⟨0, _⟩ => exact lhs0 _ _
      | ⟨1, _⟩ => exact (lhs1 _ _).trans hk)
  · exact funext fun a => Fin.ext (by
      match a with
      | ⟨0, _⟩ => exact rhs0 _ _
      | ⟨1, _⟩ => exact (rhs1 _ _).trans hk)
  · exact Finset.sum_congr rfl fun k _ => by rw [h3, h5]

/-- Equality of two 32-bit words as a one-bit word. -/
theorem cmpi_eq_ite (a b : BitVec 32) : IntOp.cmpi .eq a b = if a = b then 1#1 else 0#1 := by
  unfold IntOp.cmpi
  by_cases h : a = b
  · simp [h]
  · rw [if_neg h, show (a == b) = false from by simpa using h]; rfl

/-- The label of local row r against the label of column j. -/
theorem pos_apply (v10 : IVec S128x1 32) (v12 : IVec S1x8192 32) (h1 : S128x1.ShapeCasts S128x1) (h2 : S1x8192.ShapeCasts S1x8192)
    (hb1 : S128x1.Broadcasts S128x8192) (hb2 : S1x8192.Broadcasts S128x8192) (r : Fin 128) (j : Fin 8192) :
    cmpi .eq (broadcastTo S128x8192 (shapeCast S128x1 v10 h1) hb1) (broadcastTo S128x8192 (shapeCast S1x8192 v12 h2) hb2) (ix2 r j)
      = if v10 (ix2 r (0 : Fin 1)) = v12 (ix2 (0 : Fin 1) j) then 1#1 else 0#1 := by
  show IntOp.cmpi .eq (broadcastTo S128x8192 (shapeCast S128x1 v10 h1) hb1 (ix2 r j)) (broadcastTo S128x8192 (shapeCast S1x8192 v12 h2) hb2 (ix2 r j)) = _
  rw [Cert.LibKeepdims.broadcastTo_a1_ab_apply, broadcastTo_1b_ab_apply, shapeCast_self, shapeCast_self, cmpi_eq_ite]

/-- Column j is the diagonal of local row r at grid coordinate i0 exactly when j = 128·i0 + r. -/
theorem diag_apply (i0 : Nat) (hi : i0 < 64) (hi1 : S128x8192.Iotas .tc 32 [1]) (hi0 : S128x1.Iotas .tc 32 [0])
    (hb : S128x1.Broadcasts S128x8192) (r : Fin 128) (j : Fin 8192) :
    cmpi .eq (iota .tc S128x8192 32 [1] hi1) (broadcastTo S128x8192 (addi (broadcast S128x1 (Scalar.muli (BitVec.ofNat 32 i0) 128#32)) (iota .tc S128x1 32 [0] hi0)) hb) (ix2 r j)
      = if j.val = i0 * 128 + r.val then 1#1 else 0#1 := by
  show IntOp.cmpi .eq (iota .tc S128x8192 32 [1] hi1 (ix2 r j)) (broadcastTo S128x8192 (addi (broadcast S128x1 (Scalar.muli (BitVec.ofNat 32 i0) 128#32)) (iota .tc S128x1 32 [0] hi0)) hb (ix2 r j)) = _
  rw [iota_single_apply, Cert.LibKeepdims.broadcastTo_a1_ab_apply]
  show IntOp.cmpi .eq _ (IntOp.addi (Scalar.muli (BitVec.ofNat 32 i0) 128#32) (iota .tc S128x1 32 [0] hi0 (ix2 r (0 : Fin 1)))) = _
  rw [iota_single_apply, cmpi_eq_ite]
  have key : (BitVec.ofNat 32 j.val = IntOp.addi (Scalar.muli (BitVec.ofNat 32 i0) 128#32) (BitVec.ofNat 32 r.val)) ↔ j.val = i0 * 128 + r.val := by
    unfold IntOp.addi Scalar.muli IntOp.muli
    rw [← BitVec.toNat_inj]
    simp only [BitVec.toNat_add, BitVec.toNat_mul, BitVec.toNat_ofNat]
    have := j.isLt; have := r.isLt
    constructor <;> intro h <;> omega
  exact if_congr key rfl rfl

/-- The positives of a row other than the row itself, as a one-bit word. -/
theorem posUsed_apply (P D : IVec S128x8192 1) (g : Fin 8192) (r : Fin 128) (k : Fin 8192)
    (hP : P (ix2 r k) = if lab g = lab k then 1#1 else 0#1) (hD : D (ix2 r k) = if k = g then 1#1 else 0#1) :
    andi P (xori D (constantI S128x8192 1 1#1)) (ix2 r k) = if lab g = lab k ∧ k ≠ g then 1#1 else 0#1 := by
  show IntOp.andi (P (ix2 r k)) (IntOp.xori (D (ix2 r k)) 1#1) = _
  rw [hP, hD]
  by_cases h1 : lab g = lab k <;> by_cases h2 : k = g <;> simp [h1, h2, IntOp.andi, IntOp.xori]

/-- From the row's scaled similarities L, label mask P and diagonal mask D to the row loss. -/
theorem core (L : FVec Ideal S128x8192 .f32) (P D : IVec S128x8192 1)
    (hr : S128x8192.Reduces [1] S128) (hs : S128.ShapeCasts S128x1) (hb : S128x1.Broadcasts S128x8192) (hlt : 1 < 32)
    (g : Fin 8192) (r : Fin 128)
    (hL : ∀ k : Fin 8192, L (ix2 r k) = logit X g k)
    (hP : ∀ k : Fin 8192, P (ix2 r k) = if lab g = lab k then 1#1 else 0#1)
    (hD : ∀ k : Fin 8192, D (ix2 r k) = if k = g then 1#1 else 0#1) :
    mulf (broadcast S128x1 (Scalar.ofBits .f32 0xBFB6DB6E#32))
      (divf
        (shapeCast S128x1 (multiReduction .add [1] S128
          (select (andi P (xori D (constantI S128x8192 1 1#1)))
            (subf L (log (addf (exp L) (broadcastTo S128x8192 (shapeCast S128x1 (multiReduction .add [1] S128
              (select P (broadcast S128x8192 (Scalar.ofBits .f32 0x00000000#32)) (exp L)) 0x00000000#32 hr (.inl rfl) rfl) hs) hb))))
            (broadcast S128x8192 (Scalar.ofBits .f32 0x00000000#32))) 0x00000000#32 hr (.inl rfl) rfl) hs)
        (shapeCast S128x1 (multiReduction .add [1] S128
          (sitofp .f32 (extui 32 (andi P (xori D (constantI S128x8192 1 1#1))) hlt)) 0x00000000#32 hr (.inl rfl) rfl) hs))
      (ix2 r (0 : Fin 1)) = rowLoss X lab g := by
  rw [mulf_apply, broadcast_apply, divf_apply, Cert.LibKeepdims.shapeCast_a_a1_apply, Cert.LibKeepdims.shapeCast_a_a1_apply,
    rowsum_apply, rowsum_apply]
  unfold rowLoss num den scale
  have hns : ∀ k : Fin 8192, broadcastTo S128x8192 (shapeCast S128x1 (multiReduction .add [1] S128
      (select P (broadcast S128x8192 (Scalar.ofBits .f32 0x00000000#32)) (exp L)) 0x00000000#32 hr (.inl rfl) rfl) hs) hb (ix2 r k)
      = negSum X lab g := by
    intro k
    rw [Cert.LibKeepdims.broadcastTo_a1_ab_apply, Cert.LibKeepdims.shapeCast_a_a1_apply, rowsum_apply]
    unfold negSum
    refine Finset.sum_congr rfl fun j _ => ?_
    rw [select_apply, hP j]
    by_cases h : lab g = lab j
    · rw [if_pos h, if_pos h, select_one]; exact Ideal.ofBits_zero_f32
    · rw [if_neg h, if_neg h, select_zero]
      show Ideal.exp (L (ix2 r j)) = _
      rw [hL]
  refine congrArg₂ (fun a b => Ideal.ofBits .f32 0xBFB6DB6E#32 * Ideal.div a b) ?_ ?_
  · refine Finset.sum_congr rfl fun k _ => ?_
    rw [select_apply, posUsed_apply lab P D g r k (hP k) (hD k)]
    by_cases hc : lab g = lab k ∧ k ≠ g
    · rw [if_pos hc, if_pos hc, select_one]
      show L (ix2 r k) - Ideal.log (Ideal.exp (L (ix2 r k)) + _) = _
      rw [hns k, hL k]
      rfl
    · rw [if_neg hc, if_neg hc, select_zero]; exact Ideal.ofBits_zero_f32
  · refine Finset.sum_congr rfl fun k _ => ?_
    show ((((andi P (xori D (constantI S128x8192 1 1#1)) (ix2 r k)).setWidth 32).toInt : ℝ) : EReal) = _
    rw [posUsed_apply lab P D g r k (hP k) (hD k)]
    by_cases hc : lab g = lab k ∧ k ≠ g
    · rw [if_pos hc, if_pos hc]; norm_num
    · rw [if_neg hc, if_neg hc]; norm_num

/-- The body's result at local row r of the tile at grid coordinate i is the row loss of the global row g = 128·i + r,
    when the loaded tiles hold the features and labels of the rows they stand for. -/
theorem pay_apply (i : grid0.Coords) (v3 : Vec Ideal S128x128 .bf16) (v5 : Vec Ideal S8192x128 .bf16)
    (v10 : Vec Ideal S128x1 .i32) (v12 : Vec Ideal S1x8192 .i32) (g : Fin 8192) (r : Fin 128)
    (hi : (i 0).val < 64) (hg : g.val = (i 0).val * 128 + r.val)
    (h3 : ∀ d : Fin 128, v3 (ix2 r d) = X g d) (h5 : ∀ (j : Fin 8192) (d : Fin 128), v5 (ix2 j d) = X j d)
    (h10 : v10 (ix2 r (0 : Fin 1)) = lab g) (h12 : ∀ j : Fin 8192, v12 (ix2 (0 : Fin 1) j) = lab j) :
    k0_pay1 (k0_pay2 i v3 v5 v10 v12) (ix2 r (0 : Fin 1)) = rowLoss X lab g := by
  unfold k0_pay1 k0_pay2
  refine core X lab _ _ _ _ _ _ _ g r (fun k => logits_apply X v3 v5 _ _ g r k h3 h5) (fun k => ?_) (fun k => ?_)
  · exact (pos_apply v10 v12 _ _ _ _ r k).trans (by rw [h10, h12])
  · exact (diag_apply (i 0).val hi _ _ _ r k).trans
      (if_congr ⟨fun h => Fin.ext (h.trans hg.symm), fun h => by rw [h, hg]⟩ rfl rfl)

end Cert.Contrast.KerPay

end
-- ==== Proof.KerRun.lean ====
/-
  The kernel's run read as values: what each grid point writes back is the row losses of its 128 rows, the 64 tiles
  cover the 8192 rows, and the lines after the launch average the rows.
-/
import proofs.«169283_j10625749090671_2_alg».proof.Proof.Gen.KernelIdeal.Frame
import proofs.«169283_j10625749090671_2_alg».proof.Proof.KerPay
import Idealize.ShloMosaic.Lib.Pipeline.Value
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Contrast.KerRun

open Cert.KernelIdeal Cert.KernelIdeal.Gen Cert.Contrast

theorem hz : (![0, 0] : Fin 2 → Nat) = fun _ => 0 := funext fun a => by fin_cases a <;> rfl

/-- What the body leaves in the output tile: its arithmetic on the query rows (a 128-row window of the resident
    features), the resident features and the two label tiles. -/
theorem out_eq {F : FTy → Type} [FloatOps F] [Named F] (c : Dev nD) (i : grid0.Coords) (arg1 : Memref sig .tc .vmem S8192x128 .bf16) (harg1 : arg1.IsWhole) (arg2 : Memref sig .tc .vmem S128x1 .i32) (harg2 : arg2.IsWhole) (arg3 : Memref sig .tc .vmem S1x8192 .i32) (harg3 : arg3.IsWhole) (arg4 : Memref sig .tc .vmem S128x1 .f32) (harg4 : arg4.IsWhole)
    (x0 : Vec F S8192x128 .bf16) (x1 : Vec F S128x1 .i32) (x2 : Vec F S1x8192 .i32) :
    out0_A_3 c i arg1 harg1 arg2 harg2 arg3 harg3 arg4 harg4 x0 x1 x2
      = k0_pay1 (k0_pay2 i (View.ld x0 (Rect.unit (s := S8192x128) (k0_off1 i) S128x128.size (Facts₀.k0_off1_inb i))) x0 x1 x2) := by
  unfold out0_A_3
  rw [View.read_writes_eq_canon _ _ _ (cover0_A_3 c i arg1 harg1 arg2 harg2 arg3 harg3 arg4 harg4 x0 x1 x2)]
  unfold kernelRun0_A
  dsimp only
  try sl_unfold_words
  rw [View.canon_unit_zero hz]
  simp only [View.readAt_eq_ld, harg1.read_unread, harg2.read_unread, harg3.read_unread, View.ld_unit_zero (S := S8192x128) hz, View.ld_unit_zero (S := S128x1) hz, View.ld_unit_zero (S := S1x8192) hz]

variable (m : (ℓ : Loc nD τ sig) → Buf (Elt Ideal) ℓ) (ρ : Dev nD → PrngReg)

/-- The features and the labels of the launch, by row. -/
def feat (c : Dev nD) : Fin 8192 → Fin 128 → EReal := fun j d =>
  (m ((c : Thread nD τ).loc main_arg0) : S8192x1x128.Idx → EReal) (ix3 j (0 : Fin 1) d)
def labl (c : Dev nD) : Fin 8192 → BitVec 32 := fun j =>
  (m ((c : Thread nD τ).loc main_arg1) : S8192.Idx → BitVec 32) (ix1 j)

/-- The three arrays the launch stages, as the lines before it leave them. -/
theorem V_feats (c : Dev nD) : (V m c main_v1 : S8192x128.Idx → EReal)
    = (truncf (F := Ideal) .bf16 (shapeCast S8192x128 (m ((c : Thread nD τ).loc main_arg0) : S8192x1x128.Idx → EReal) Facts₀.shapeCasts_S8192x1x128_S8192x128) Facts₀.bitsLt_bf16_f32 : S8192x128.Idx → EReal) := by
  show StableHlo.after hostOps0 (fun b => m (c, b)) (Proc.devRef .tc main_v1) = _
  after_results; rfl
theorem V_rowlab (c : Dev nD) : (V m c main_v2 : S8192x1.Idx → BitVec 32)
    = shapeCast S8192x1 (m ((c : Thread nD τ).loc main_arg1) : S8192.Idx → BitVec 32) Facts₀.shapeCasts_S8192_S8192x1 := by
  show StableHlo.after hostOps0 (fun b => m (c, b)) (Proc.devRef .tc main_v2) = _
  after_results; rfl
theorem V_collab (c : Dev nD) : (V m c main_v3 : S1x8192.Idx → BitVec 32)
    = shapeCast S1x8192 (m ((c : Thread nD τ).loc main_arg1) : S8192.Idx → BitVec 32) Facts₀.shapeCasts_S8192_S1x8192 := by
  show StableHlo.after hostOps0 (fun b => m (c, b)) (Proc.devRef .tc main_v3) = _
  after_results; rfl

theorem V_feats_apply (c : Dev nD) (j : Fin 8192) (d : Fin 128) : (V m c main_v1 : S8192x128.Idx → EReal) (ix2 j d) = feat m c j d := by
  rw [V_feats, truncf_apply]
  unfold feat
  refine shapeCast_apply _ _ _ _ ?_
  rw [Shape.rowMajor_val_two]
  refine (Shape.rowMajor_val_three (d := ![8192, 1, 128]) (ix3 j (0 : Fin 1) d)).trans ?_
  show (j.val * 1 + 0) * 128 + d.val = j.val * 128 + d.val
  omega

theorem V_rowlab_apply (c : Dev nD) (j : Fin 8192) (u : Fin 1) : (V m c main_v2 : S8192x1.Idx → BitVec 32) (ix2 j u) = labl m c j := by
  rw [V_rowlab]
  exact Cert.LibKeepdims.shapeCast_a_a1_apply _ _ j u

theorem V_collab_apply (c : Dev nD) (u : Fin 1) (j : Fin 8192) : (V m c main_v3 : S1x8192.Idx → BitVec 32) (ix2 u j) = labl m c j := by
  rw [V_collab]
  unfold labl
  refine shapeCast_apply _ _ _ _ ?_
  rw [Shape.rowMajor_val_two]
  refine (Shape.rowMajor_val_one (d := ![8192]) (ix1 j)).trans ?_
  show j.val = u.val * 8192 + j.val
  have : u.val = 0 := by omega
  omega

/-- The printed index maps over the grid: the features and the column labels stay at block (0, 0), the row labels
    and the output move with the point, whose grid coordinate is its number. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t (0 : Fin 1)).val = t.val :=
  (by decide +kernel : ∀ t : Fin grid0.N, _)

/-- The resident feature tile is the whole feature array. -/
theorem iblk0_apply (c : Dev nD) (t : Fin cfg0.N) (j : Fin 8192) (d : Fin 128) :
    (iblk m c 0 t : Vec Ideal S8192x128 .bf16) (ix2 j d) = feat m c j d := by
  obtain ⟨e00, e01, -⟩ := idx_facts t
  unfold iblk
  rw [View.read_apply, ← V_feats_apply m c j d]
  show (V m c main_v1 : S8192x128.Idx → EReal) _ = _
  congr 1
  funext a
  apply Fin.ext
  match a with
  | ⟨0, _⟩ => show win0_0.index t (0 : Fin 2) * 8192 + 1 * j.val = j.val; rw [e00]; omega
  | ⟨1, _⟩ => show win0_0.index t (1 : Fin 2) * 128 + 1 * d.val = d.val; rw [e01]; omega

/-- The row-label tile of point t holds the labels of rows 128·t … 128·t + 127. -/
theorem iblk1_apply (c : Dev nD) (t : Fin cfg0.N) (r : Fin 128) (u : Fin 1) (g : Fin 8192) (hg : g.val = t.val * 128 + r.val) :
    (iblk m c 1 t : Vec Ideal S128x1 .i32) (ix2 r u) = labl m c g := by
  obtain ⟨-, -, e10, e11, -⟩ := idx_facts t
  unfold iblk
  rw [View.read_apply, ← V_rowlab_apply m c g (0 : Fin 1)]
  show (V m c main_v2 : S8192x1.Idx → BitVec 32) _ = _
  congr 1
  funext a
  apply Fin.ext
  match a with
  | ⟨0, _⟩ => show win0_1.index t (0 : Fin 2) * 128 + 1 * r.val = g.val; rw [e10, hg]; omega
  | ⟨1, _⟩ => show win0_1.index t (1 : Fin 2) * 1 + 1 * u.val = 0; rw [e11]; omega

/-- The column-label tile is the whole label array as a row. -/
theorem iblk2_apply (c : Dev nD) (t : Fin cfg0.N) (u : Fin 1) (j : Fin 8192) :
    (iblk m c 2 t : Vec Ideal S1x8192 .i32) (ix2 u j) = labl m c j := by
  obtain ⟨-, -, -, -, e20, e21, -⟩ := idx_facts t
  unfold iblk
  rw [View.read_apply, ← V_collab_apply m c (0 : Fin 1) j]
  show (V m c main_v3 : S1x8192.Idx → BitVec 32) _ = _
  congr 1
  funext a
  apply Fin.ext
  match a with
  | ⟨0, _⟩ => show win0_2.index t (0 : Fin 2) * 1 + 1 * u.val = 0; rw [e20]; omega
  | ⟨1, _⟩ => show win0_2.index t (1 : Fin 2) * 8192 + 1 * j.val = j.val; rw [e21]; omega

/-- The query rows of point i are rows 128·i … 128·i + 127 of the resident features. -/
theorem query_rows (c : Dev nD) (t : Fin cfg0.N) (i : grid0.Coords) (r : Fin 128) (d : Fin 128) (g : Fin 8192)
    (hg : g.val = (i 0).val * 128 + r.val) :
    View.ld (iblk m c 0 t : Vec Ideal S8192x128 .bf16) (Rect.unit (s := S8192x128) (k0_off1 i) S128x128.size (Facts₀.k0_off1_inb i)) (ix2 r d)
      = feat m c g d := by
  rw [← iblk0_apply m c t g d]
  show (iblk m c 0 t : Vec Ideal S8192x128 .bf16) _ = _
  congr 1
  funext a
  apply Fin.ext
  match a with
  | ⟨0, _⟩ => show k0_off1 i (0 : Fin 2) + 1 * r.val = g.val; rw [k0_off1_eq i, hg]; show 128 * (i 0).val + 1 * r.val = _; omega
  | ⟨1, _⟩ => show k0_off1 i (1 : Fin 2) + 1 * d.val = d.val; rw [k0_off1_eq i]; show 0 + 1 * d.val = _; omega

/-- The body's result at any index of its 128 × 1 tile. -/
theorem pay_apply_idx (X : Fin 8192 → Fin 128 → EReal) (lab : Fin 8192 → BitVec 32) (i : grid0.Coords)
    (v3 : Vec Ideal S128x128 .bf16) (v5 : Vec Ideal S8192x128 .bf16) (v10 : Vec Ideal S128x1 .i32) (v12 : Vec Ideal S1x8192 .i32)
    (y : S128x1.Idx) (g : Fin 8192) (hi : (i 0).val < 64) (hg : g.val = (i 0).val * 128 + (y 0).val)
    (h3 : ∀ d : Fin 128, v3 (ix2 (y 0) d) = X g d) (h5 : ∀ (j : Fin 8192) (d : Fin 128), v5 (ix2 j d) = X j d)
    (h10 : v10 (ix2 (y 0) (0 : Fin 1)) = lab g) (h12 : ∀ j : Fin 8192, v12 (ix2 (0 : Fin 1) j) = lab j) :
    k0_pay1 (k0_pay2 i v3 v5 v10 v12) y = rowLoss X lab g := by
  have h1 : y 1 = (0 : Fin 1) := Fin.ext (by have h : (y 1).val < 1 := (y 1).isLt; show (y 1).val = 0; omega)
  have e : y = ix2 (y 0) (0 : Fin 1) := (eq_ix2 y).trans (by rw [h1]; rfl)
  rw [e]
  exact Cert.Contrast.KerPay.pay_apply X lab i v3 v5 v10 v12 g (y 0) hi hg h3 h5 h10 h12

end Cert.Contrast.KerRun

end
-- ==== Proof.KerFlush.lean ====
/-
  From the tiles to the result of the kernel.

  Grid point t (of 64) writes back a tile of 128 × 1 values; at index y of the tile the body's arithmetic gives the loss
  of row 128·t + y₀ — its query rows are rows 128·t … 128·t + 127 of the features, its row labels those rows' labels.
  Tile t is written at rows 128·t … 128·t + 127 of the 8192 × 1 output array, so what point t writes back is that block
  of the array  rows = (i ↦ rowLoss i) ; row r lies in the tile of point r / 128, so the 64 tiles cover the array and
  after the launch the array is  rows . The lines after the launch add the array up from 0 over both axes — the sum
  over the 8192 × 1 index set is the sum over the 8192 rows — and divide by 8192: the specification's loss.
-/
import proofs.«169283_j10625749090671_2_alg».proof.Proof.KerRun
import Idealize.ShloMosaic.Lib.Pipeline.Value
import Idealize.ShloMosaic.Lib.Tactic
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Contrast.KerFlush

open Cert.KernelIdeal Cert.KernelIdeal.Gen Cert.Contrast Cert.Contrast.KerRun

variable (m : (ℓ : Loc nD τ sig) → Buf (Elt Ideal) ℓ) (ρ : Dev nD → PrngReg)

/-- The row losses as an 8192 × 1 array. -/
def rows (c : Dev nD) : S8192x1.Idx → EReal := fun idx => rowLoss (feat m c) (labl m c) (idx 0)

/-- What the body leaves in the output tile at point t, read at an index of the tile: the loss of row 128·t + y₀. -/
theorem outsAt0_apply (c : Dev nD) (t : Fin cfg0.N) (y : S128x1.Idx) (g : Fin 8192) (hg : g.val = t.val * 128 + (y 0).val) :
    (outsAt0 m c t : Vec Ideal S128x1 .f32) y = rowLoss (feat m c) (labl m c) g := by
  obtain ⟨-, -, -, -, -, -, -, -, eg⟩ := idx_facts t
  have hN : cfg0.N = 64 := N_0
  have ht : t.val < 64 := by have := t.isLt; omega
  have hg' : g.val = (grid0.coords t (0 : Fin 1)).val * 128 + (y 0).val := by rw [eg]; exact hg
  unfold outsAt0
  refine (congrFun (out_eq c (grid0.coords t) (ms0_0 t) (hs0_0 t) (ms0_1 t) (hs0_1 t) (ms0_2 t) (hs0_2 t) (ms0_3 t) (hs0_3 t)
    (iblk m c 0 t) (iblk m c 1 t) (iblk m c 2 t)) y).trans ?_
  exact pay_apply_idx (feat m c) (labl m c) (grid0.coords t)
    (View.ld (iblk m c 0 t : Vec Ideal S8192x128 .bf16)
      (Rect.unit (s := S8192x128) (k0_off1 (grid0.coords t)) S128x128.size (Facts₀.k0_off1_inb (grid0.coords t))))
    (iblk m c 0 t) (iblk m c 1 t) (iblk m c 2 t) y g (by rw [eg]; exact ht) hg'
    (fun d => query_rows m c t (grid0.coords t) (y 0) d g hg')
    (fun j d => iblk0_apply m c t j d)
    (iblk1_apply m c t (y 0) (0 : Fin 1) g hg)
    (fun j => iblk2_apply m c t (0 : Fin 1) j)

/-- What point t writes back is rows 128·t … 128·t + 127 of the row losses. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  obtain ⟨-, -, -, -, -, -, e30, e31, -⟩ := idx_facts t
  have hN : cfg0.N = 64 := N_0
  have ht : t.val < 64 := by have := t.isLt; omega
  funext y
  have hy : ((y : S128x1.Idx) 0).val < 128 := ((y : S128x1.Idx) 0).isLt
  have hg0 : t.val * 128 + ((y : S128x1.Idx) 0).val < 8192 := by omega
  refine (outsAt0_apply m c t (y : S128x1.Idx) ⟨t.val * 128 + ((y : S128x1.Idx) 0).val, hg0⟩ rfl).trans ?_
  show _ = rows m c (((cfg0.win 3).blk t).view.emb y)
  unfold rows
  refine congrArg (rowLoss (feat m c) (labl m c)) (Fin.ext ?_)
  show t.val * 128 + ((y : S128x1.Idx) 0).val = win0_3.index t (0 : Fin 2) * 128 + 1 * ((y : S128x1.Idx) 0).val
  rw [e30]; omega

/-- An index of the array is in point t's block iff each coordinate is in the block's range on its axis. -/
theorem mem_blk (t : Fin cfg0.N) (i : S8192x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v4).slice (win0_3.rect t)).set ↔ _
  rw [View.set_slice_whole, Rect.mem_set_unit]
  exact Iff.rfl

/-- The 64 tiles of 128 rows cover the 8192 rows, so after the launch the output array is the row losses. -/
theorem final (c : Dev nD) : (dats m 0 c).arrAt 3 cfg0.N = rows m c :=
  (dats m 0 c).arrAt_eq_of_cover 3 (rows m c) (fun t _ => flushed_eq m c t) fun i => by
    have hN : cfg0.N = 64 := N_0
    have hi0 : ((i : S8192x1.Idx) 0).val < 8192 := ((i : S8192x1.Idx) 0).isLt
    have hi1 : ((i : S8192x1.Idx) 1).val < 1 := ((i : S8192x1.Idx) 1).isLt
    have htN : ((i : S8192x1.Idx) 0).val / 128 < cfg0.N := by rw [hN]; omega
    obtain ⟨-, -, -, -, -, -, e30, e31, -⟩ := idx_facts ⟨((i : S8192x1.Idx) 0).val / 128, htN⟩
    refine ⟨⟨((i : S8192x1.Idx) 0).val / 128, htN⟩, flush0_3 _, ?_⟩
    rw [mem_blk]
    intro a
    match a with
    | ⟨0, _⟩ =>
      show win0_3.index ⟨((i : S8192x1.Idx) 0).val / 128, htN⟩ (0 : Fin 2) * 128 ≤ ((i : S8192x1.Idx) 0).val
        ∧ ((i : S8192x1.Idx) 0).val < win0_3.index ⟨((i : S8192x1.Idx) 0).val / 128, htN⟩ (0 : Fin 2) * 128 + 128
      rw [e30]; show ((i : S8192x1.Idx) 0).val / 128 * 128 ≤ _ ∧ _ < ((i : S8192x1.Idx) 0).val / 128 * 128 + 128; omega
    | ⟨1, _⟩ =>
      show win0_3.index ⟨((i : S8192x1.Idx) 0).val / 128, htN⟩ (1 : Fin 2) * 1 ≤ ((i : S8192x1.Idx) 1).val
        ∧ ((i : S8192x1.Idx) 1).val < win0_3.index ⟨((i : S8192x1.Idx) 0).val / 128, htN⟩ (1 : Fin 2) * 1 + 1
      rw [e31]; omega

/-- The sum from 0 of an 8192 × 1 array over both of its axes is 0 plus the sum of its 8192 entries. -/
theorem reduceAdd_rows (y : S8192x1.Idx → EReal) (h : S8192x1.ReducesTo [0, 1] S_) (hu : 0 < S_.numel) (i' : S_.Idx) :
    Host.reduceAdd (F := Ideal) (φ := .f32) y (constant (F := Ideal) S_ .f32 0x00000000#32) h hu i'
      = 0 + ∑ i : Fin 8192, y (ix2 i (0 : Fin 1)) := by
  simp only [Host.reduceAdd, Ideal.hostReduceAdd_def]
  rw [Ideal.hostReduceAdd_total h (fun b => b.elim0) y _ i', constant_apply, Ideal.ofBits_zero_f32, ValueIdx.sum_idx2]
  refine congrArg ((0 : EReal) + ·) (Finset.sum_congr rfl fun i _ => ?_)
  exact Fin.sum_univ_one _

/-- The lines after the launch: the sum of the row losses over the 8192 × 1 array, from 0, divided by 8192. -/
theorem tail_v6 (c : Dev nD) :
    Pipeline.afterTail₀ cfgs (dats m) 0 (V0 m) [hostOps1] c main_v6 = (fun _ => loss (feat m c) (labl m c)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v4)
      = rows m c :=
    (Pipeline.withArrays_arr spec0 launch0.win.arr_inj c _ _ 3).trans (final m c)
  rw [hA]
  funext i'
  show Ideal.div (Host.reduceAdd (F := Ideal) (φ := .f32) (rows m c) (constant (F := Ideal) S_ .f32 0x00000000#32) _ _ i')
    (Ideal.ofBits .f32 0x46000000#32) = _
  rw [reduceAdd_rows]
  rfl

/-- The kernel's run, read: the result is the specification's loss of the launch's features and labels, and the two
    arguments end as they were. -/
theorem run : θ_run defs (onTc (τ := τ) (main (F := Ideal))) ⟨m, fun _ => 0, ρ⟩ fun r => ∀ c : Dev nD,
      r.2.mem ((c : Thread nD τ).loc main_v6) = (fun _ => loss (feat m c) (labl m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Contrast.KerFlush

end
-- ==== Proof.RowMath.lean ====
/-
  Row-level mathematics of the contrastive loss over the extended reals: coercion of finite
  sums, the invariance of a row's log-probability under a common finite shift of its logits,
  the finiteness of a maximum of finitely many reals, and the reading of a left fold that
  writes one constant at computed positions.
-/
import Idealize.ShloMosaic.PureOps.Ideal

noncomputable section

namespace Cert.Contrast.RowMath

open Idealize.ShloMosaic

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe {ι : Type*} [Fintype ι] (x y : ι → ℝ) :
    (∑ d, (x d : EReal) * (y d : EReal)) = ((∑ d, x d * y d : ℝ) : EReal) := by
  rw [coe_sum]
  exact Finset.sum_congr rfl (fun d _ => (EReal.coe_mul _ _).symm)

/-- For reals: `exp (b j) + Σ_{¬p k} exp (b k)` is positive. -/
theorem denom_pos {ι : Type*} [Fintype ι] (b : ι → ℝ) (p : ι → Prop) [DecidablePred p] (j : ι) :
    0 < Real.exp (b j) + ∑ k, (if p k then (0 : ℝ) else Real.exp (b k)) := by
  have h1 : 0 ≤ ∑ k, (if p k then (0 : ℝ) else Real.exp (b k)) :=
    Finset.sum_nonneg (fun k _ => by split_ifs; exacts [le_rfl, (Real.exp_pos _).le])
  have h2 := Real.exp_pos (b j)
  linarith

/-- For reals: `(a j − M) − log (exp (a j − M) + Σ_{¬p k} exp (a k − M)) = a j − log (exp (a j) + Σ_{¬p k} exp (a k))`,
    because the first denominator is `exp (−M)` times the second. -/
theorem real_shift {ι : Type*} [Fintype ι] (a : ι → ℝ) (M : ℝ) (p : ι → Prop) [DecidablePred p] (j : ι) :
    (a j - M) - Real.log (Real.exp (a j - M) + ∑ k, (if p k then (0 : ℝ) else Real.exp (a k - M)))
      = a j - Real.log (Real.exp (a j) + ∑ k, (if p k then (0 : ℝ) else Real.exp (a k))) := by
  have hsum : (∑ k, (if p k then (0 : ℝ) else Real.exp (a k - M)))
      = (∑ k, (if p k then (0 : ℝ) else Real.exp (a k))) * Real.exp (-M) := by
    rw [Finset.sum_mul]
    refine Finset.sum_congr rfl (fun k _ => ?_)
    split_ifs
    · simp
    · rw [sub_eq_add_neg, Real.exp_add]
  have hY := denom_pos a p j
  rw [hsum, sub_eq_add_neg (a j) M, Real.exp_add, ← add_mul,
    Real.log_mul hY.ne' (Real.exp_pos _).ne', Real.log_exp]
  ring

/-- The logarithm of `exp (b j) + Σ_{¬p k} exp (b k)`, written with coerced reals, is the coerced real logarithm. -/
theorem log_denom_coe {ι : Type*} [Fintype ι] (b : ι → ℝ) (p : ι → Prop) [DecidablePred p] (j : ι) :
    Ideal.log ((Real.exp (b j) : EReal) + ∑ k, (((if p k then (0 : ℝ) else Real.exp (b k)) : ℝ) : EReal))
      = ((Real.log (Real.exp (b j) + ∑ k, (if p k then (0 : ℝ) else Real.exp (b k))) : ℝ) : EReal) := by
  rw [← coe_sum, ← EReal.coe_add, Ideal.log_coe, if_neg (not_le.mpr (denom_pos b p j))]

/-- The log-probability of a row is unchanged when a common real `M` is subtracted from all its logits:
    `(a j − M) − log (exp (a j − M) + Σ_{¬p k} exp (a k − M)) = a j − log (exp (a j) + Σ_{¬p k} exp (a k))`
    over the extended reals, the excluded terms written as a product with `1 − [p k]` on the left. -/
theorem shifted_logProb {ι : Type*} [Fintype ι] (a : ι → ℝ) (M : ℝ) (p : ι → Prop) [DecidablePred p] (j : ι) :
    ((a j : EReal) - (M : EReal)) - Ideal.log (Ideal.exp ((a j : EReal) - (M : EReal))
        + ((0 : EReal) + ∑ k, Ideal.exp ((a k : EReal) - (M : EReal)) * ((1 : EReal) - (if p k then (1 : EReal) else 0))))
      = (a j : EReal) - Ideal.log (Ideal.exp (a j : EReal) + ∑ k, (if p k then (0 : EReal) else Ideal.exp (a k : EReal))) := by
  have hL : ∀ k, Ideal.exp ((a k : EReal) - (M : EReal)) * ((1 : EReal) - (if p k then (1 : EReal) else 0))
      = (((if p k then (0 : ℝ) else Real.exp (a k - M)) : ℝ) : EReal) := by
    intro k
    have h11 : (1 : EReal) - 1 = 0 := by
      rw [← EReal.coe_one, ← EReal.coe_sub, sub_self, EReal.coe_zero]
    rw [← EReal.coe_sub, Ideal.exp_coe]
    by_cases h : p k
    · simp [h, h11]
    · simp [h]
  have hR : ∀ k, (if p k then (0 : EReal) else Ideal.exp (a k : EReal))
      = (((if p k then (0 : ℝ) else Real.exp (a k)) : ℝ) : EReal) := by
    intro k
    by_cases h : p k
    · simp [h]
    · simp [h]
  rw [Finset.sum_congr rfl (fun k _ => hL k), Finset.sum_congr rfl (fun k _ => hR k), zero_add,
    ← EReal.coe_sub, Ideal.exp_coe, Ideal.exp_coe,
    log_denom_coe (fun k => a k - M) p j, log_denom_coe a p j, ← EReal.coe_sub, ← EReal.coe_sub,
    real_shift]

/-- The maximum of finitely many (at least one) reals, folded from `⊥`, is a real. -/
theorem fold_max_coe {n : ℕ} (hn : 0 < n) (f : Fin n → ℝ) :
    ∃ r : ℝ, (Finset.univ : Finset (Fin n)).fold max (⊥ : EReal) (fun k => (f k : EReal)) = (r : EReal) := by
  have key : ∀ s : Finset (Fin n), s = ∅ ∨ ∃ r : ℝ, s.fold max (⊥ : EReal) (fun k => (f k : EReal)) = (r : EReal) := by
    intro s
    induction s using Finset.induction_on with
    | empty => exact Or.inl rfl
    | insert a s ha ih =>
      right
      rw [Finset.fold_insert ha]
      rcases ih with rfl | ⟨r, hr⟩
      · exact ⟨f a, by simp⟩
      · rw [hr]
        rcases max_choice (f a : EReal) (r : EReal) with h | h
        · exact ⟨f a, h⟩
        · exact ⟨r, h⟩
  rcases key Finset.univ with h | h
  · exact absurd h (Finset.univ_nonempty_iff.mpr ⟨⟨0, hn⟩⟩).ne_empty
  · exact h

/-- A left fold whose step, at a list element `n`, overwrites position `i` with the constant `c` when `ρ n = some i`
    and changes nothing when `ρ n = none`, leaves `c` exactly at the positions some element of the list points to,
    and the initial value elsewhere. -/
theorem foldl_step_const {I N α : Type*} [DecidableEq I] (ρ : N → Option I) (c : α)
    (g : (I → α) → N → I → α)
    (hsome : ∀ r n i, ρ n = some i → ∀ i'', g r n i'' = if i'' = i then c else r i'')
    (hnone : ∀ r n, ρ n = none → g r n = r)
    (l : List N) (x : I → α) (i' : I) [Decidable (∃ n ∈ l, ρ n = some i')] :
    (l.foldl g x) i' = if ∃ n ∈ l, ρ n = some i' then c else x i' := by
  have key : ∀ (l' : List N) (y : I → α),
      (l'.foldl g y) i' = if ∃ n ∈ l', ρ n = some i' then c else y i' := by
    intro l'
    induction l' with
    | nil => intro y; simp
    | cons n l' ih =>
      intro y
      rw [List.foldl_cons, ih]
      cases h : ρ n with
      | none =>
        rw [hnone y n h]
        simp [h]
      | some i =>
        rw [hsome y n i h]
        by_cases hi : i' = i
        · simp [h, hi]
        · have hi' : i ≠ i' := fun e => hi e.symm
          simp [h, hi, hi']
  rw [key l x]
  by_cases h : ∃ n ∈ l, ρ n = some i'
  · rw [if_pos h, if_pos h]
  · rw [if_neg h, if_neg h]

/-- A left fold that, for each list element `n` with `ρ n = some i`, overwrites position `i` with the constant `c`
    leaves `c` exactly at the positions some element of the list points to, and the initial value elsewhere. -/
theorem foldl_set_const {I N α : Type*} [DecidableEq I] (ρ : N → Option I) (c : α) (l : List N) (x : I → α) (i' : I)
    [Decidable (∃ n ∈ l, ρ n = some i')] :
    (l.foldl (fun r n => match ρ n with
        | some i => (fun i'' => if i'' = i then c else r i'')
        | none => r) x) i'
      = if ∃ n ∈ l, ρ n = some i' then c else x i' := by
  refine foldl_step_const ρ c _ ?_ ?_ l x i'
  · intro r n i h i''
    simp only [h]
  · intro r n h
    simp only [h]

/-- A scatter whose combiner returns the update and whose updates all equal `c` holds `c` exactly at the positions
    some update index (taken in row-major order) lands on, and the operand's element elsewhere. -/
theorem scatter_set_const {s si u : Shape} {w : Nat} {α : Type} (d : ScatterDims s si u) (x : s.Idx → α)
    (idx : IVec si w) (c : α) (i' : s.Idx)
    [Decidable (∃ n ∈ List.finRange u.numel, d.resultIdx? (u.rowMajor.symm n) idx = some i')] :
    Host.scatter d (fun _ b => b) x idx (fun _ => c) i'
      = if ∃ n ∈ List.finRange u.numel, d.resultIdx? (u.rowMajor.symm n) idx = some i' then c else x i' := by
  unfold Host.scatter
  refine foldl_step_const (fun n => d.resultIdx? (u.rowMajor.symm n) idx) c _ ?_ ?_ _ x i'
  · intro r n i h i''
    beta_reduce at h
    simp only [h]
  · intro r n h
    beta_reduce at h
    simp only [h]

/-- The same, with the positions described over the update's own index space: the scatter holds `c` at `i'` exactly
    when some update index `k` lands on `i'`. -/
theorem scatter_set_const_idx {s si u : Shape} {w : Nat} {α : Type} (d : ScatterDims s si u) (x : s.Idx → α)
    (idx : IVec si w) (c : α) (i' : s.Idx) [Decidable (∃ k : u.Idx, d.resultIdx? k idx = some i')] :
    Host.scatter d (fun _ b => b) x idx (fun _ => c) i'
      = if ∃ k : u.Idx, d.resultIdx? k idx = some i' then c else x i' := by
  classical
  have hiff : (∃ n ∈ List.finRange u.numel, d.resultIdx? (u.rowMajor.symm n) idx = some i')
      ↔ ∃ k : u.Idx, d.resultIdx? k idx = some i' := by
    constructor
    · rintro ⟨n, _, h⟩
      exact ⟨_, h⟩
    · rintro ⟨k, h⟩
      exact ⟨u.rowMajor k, List.mem_finRange _, by rw [Equiv.symm_apply_apply]; exact h⟩
  rw [scatter_set_const]
  by_cases h : ∃ k : u.Idx, d.resultIdx? k idx = some i'
  · rw [if_pos h, if_pos (hiff.mpr h)]
  · rw [if_neg h, if_neg (fun h' => h (hiff.mp h'))]

end Cert.Contrast.RowMath

end
-- ==== Proof.RefMask.lean ====
/-
  Two facts about the reference program that are not read off at a single index.

  (1) The diagonal of the positive mask is zeroed by writing the constant 0 at the positions (k, k), k = 0..8191:
      the k-th index vector is (k, k) (each component is the row number k as a 32-bit word; the wrap of negative
      indices never applies, since k is never negative), so update k lands exactly on (k, k). Writing one constant
      at a set of positions gives that constant on the set and the old array off it; hence the result at (i, j)
      is 0 when i = j and the mask's entry otherwise.

  (2) The maximum of a row of real numbers is a real number: the row maximum is a fold of max starting from −∞ over
      the 8192 entries of the row; a fold of max from ⊥ over a nonempty finite family of reals is a real.
-/
import proofs.«169283_j10625749090671_2_alg».proof.Proof.Gen.ReferenceIdeal.Read
import proofs.«169283_j10625749090671_2_alg».proof.Proof.RowMath
import Idealize.ShloMosaic.PureOps.Reduce
import Idealize.ShloMosaic.PureOps.Ideal.Laws
import Idealize.ShloMosaic.Lib.Pipeline.Value
import Idealize.ShloMosaic.Lib.ValueIdx
import Idealize.ShloMosaic.Lib.Affine

noncomputable section

namespace Cert.Contrast.RefMask

open Cert.ReferenceIdeal Cert.ReferenceIdeal.Gen Cert.ReferenceIdeal.Read Idealize.ShloMosaic

/-! ## A row maximum of reals is a real -/

/-- A fold of max from ⊥ over a finite family of reals is a real, unless the family is empty. -/
theorem fold_max_bot_or_real {ι : Type} (s : Finset ι) (g : ι → EReal) (hg : ∀ k, ∃ r : ℝ, g k = (r : EReal)) :
    s = ∅ ∨ ∃ M : ℝ, s.fold max (⊥ : EReal) g = (M : EReal) := by
  classical
  induction s using Finset.induction_on with
  | empty => left; rfl
  | insert a s ha ih =>
    right
    obtain ⟨r, hr⟩ := hg a
    rw [Finset.fold_insert ha, hr]
    rcases ih with h | ⟨M, h⟩
    · subst h; exact ⟨r, by simp⟩
    · rw [h]
      rcases le_total r M with hle | hle
      · exact ⟨M, max_eq_right (EReal.coe_le_coe_iff.2 hle)⟩
      · exact ⟨r, max_eq_left (EReal.coe_le_coe_iff.2 hle)⟩

/-- The maximum over row i of an array of real numbers, taken as a fold of max from −∞, is a real number. -/
theorem rowMax_real (y : FVec Ideal S8192x8192 .f32) (hy : ∀ idx, ∃ r : ℝ, y idx = (r : EReal)) (i : Fin 8192) :
    ∃ M : ℝ, Host.reduce FloatOps.maximumf y (constant (F := Ideal) S_ .f32 0xFF800000#32)
      Facts₀.reducesTo_S8192x8192_S8192_d1 Facts₀.h_S_ (ValueIdx.ix1 i) = (M : EReal) := by
  rw [Host.reduce_eq_fold_single FloatOps.maximumf y _ Facts₀.reducesTo_S8192x8192_S8192_d1 (by decide) Facts₀.h_S_]
  have hb : constant (F := Ideal) S_ .f32 0xFF800000#32 (Shape.Idx.first Facts₀.h_S_) = (⊥ : EReal) := by
    show Ideal.ofBits .f32 0xFF800000#32 = ⊥
    simp [Ideal.ofBits, Ideal.ieee]
  rw [hb]
  rcases fold_max_bot_or_real (Finset.univ : Finset (Fin 8192)) _ (fun k => hy _) with h | h
  · exact absurd h (Finset.univ_nonempty (α := Fin 8192)).ne_empty
  · exact h

/-- The reference's row maximum, when the array it is taken of has only real entries, is a real number. -/
theorem val_main_v13_real (x0 : (⟨S8192x1x128, .f32⟩ : BufTy).Contents (Elt Ideal))
    (h : ∀ idx, ∃ r : ℝ, val_main_v12 (F := Ideal) x0 idx = (r : EReal)) (i : Fin 8192) :
    ∃ M : ℝ, val_main_v13 (F := Ideal) x0 (ValueIdx.ix1 i) = (M : EReal) :=
  rowMax_real _ h i

/-! ## The diagonal scatter -/

/-- The scatter's dimension record. -/
abbrev D : ScatterDims S8192x8192 S8192x2 S8192 := scatter_S8192x8192_S8192x2_S8192_n_01_01_1

/-- Both operand axes are inserted window axes: the window coordinate is 0 on each. -/
theorem window_eq (j : S8192.Idx) (a : Fin 2) : D.window j a = 0 := by
  match a with
  | ⟨0, _⟩ => rfl
  | ⟨1, _⟩ => rfl

/-- The window start on operand axis a for update j is component a of the j-th index vector, read signed. -/
theorem start_eq (j : S8192.Idx) (idx : IVec S8192x2 32) (a : Fin 2) :
    D.start j idx a = (idx (ValueIdx.ix2 (j 0) a)).toInt := by
  match a with
  | ⟨0, _⟩ =>
    show (idx (D.siIdx j ⟨0, by decide⟩)).toInt = _
    congr 2
    funext b
    match b with
    | ⟨0, _⟩ => rfl
    | ⟨1, _⟩ => rfl
  | ⟨1, _⟩ =>
    show (idx (D.siIdx j ⟨1, by decide⟩)).toInt = _
    congr 2
    funext b
    match b with
    | ⟨0, _⟩ => rfl
    | ⟨1, _⟩ => rfl

/-- A natural number below 2³¹, as a 32-bit word read signed, is itself. -/
theorem toInt_ofNat_small (k : Nat) (h : k < 2 ^ 31) : (BitVec.ofNat 32 k).toInt = (k : Int) := by
  rw [BitVec.toInt_ofNat']
  exact Int.bmod_eq_of_le (by omega) (by omega)

/-- The wrapped row number is the row number: it is never negative. -/
theorem val_main_v22_eq (i : S8192.Idx) : val_main_v22 (F := Ideal) i = BitVec.ofNat 32 (i 0).val := by
  rw [val_main_v22_apply, val_main_v19_apply, val_main_v17_apply, val_main_v18_apply, val_main_c_apply]
  have hk : (i 0).val < 8192 := (i 0).isLt
  have h0 : IntOp.cmpi .slt (BitVec.ofNat 32 (i 0).val) 0#32 = 0#1 :=
    ValueIdx.eq_zero_of_ne_one (fun h => by
      have h1 := IntOp.cmpi_slt.1 h
      rw [toInt_ofNat_small _ (by omega)] at h1
      have : (0#32 : BitVec 32).toInt = 0 := by decide
      omega)
  rw [h0, ValueIdx.select_zero]

/-- The same for the second copy of the wrapped row number. -/
theorem val_main_v27_eq (i : S8192.Idx) : val_main_v27 (F := Ideal) i = BitVec.ofNat 32 (i 0).val := by
  rw [val_main_v27_apply, val_main_v24_apply, val_main_v17_apply, val_main_v23_apply, val_main_c_3_apply]
  have hk : (i 0).val < 8192 := (i 0).isLt
  have h0 : IntOp.cmpi .slt (BitVec.ofNat 32 (i 0).val) 0#32 = 0#1 :=
    ValueIdx.eq_zero_of_ne_one (fun h => by
      have h1 := IntOp.cmpi_slt.1 h
      rw [toInt_ofNat_small _ (by omega)] at h1
      have : (0#32 : BitVec 32).toInt = 0 := by decide
      omega)
  rw [h0, ValueIdx.select_zero]

/-- Both components of the k-th index vector are the word of k. -/
theorem val_main_v30_eq (k : Fin 8192) (a : Fin 2) :
    val_main_v30 (F := Ideal) (ValueIdx.ix2 k a) = BitVec.ofNat 32 k.val := by
  unfold val_main_v30
  match a with
  | ⟨0, _⟩ =>
    refine (concatenate_pair_apply_left (t := S8192x2) (s₁ := S8192x1) (s₂ := S8192x1) (1 : Fin 2) _ _ _
      (ValueIdx.ix2 k (0 : Fin 2) : S8192x2.Idx) rfl (ValueIdx.ix2 k (0 : Fin 1) : S8192x1.Idx)
      (fun b => match b with | ⟨0, _⟩ => rfl | ⟨1, _⟩ => rfl)).trans ?_
    rw [val_main_v28_apply, val_main_v22_eq]
  | ⟨1, _⟩ =>
    refine (concatenate_pair_apply_right (t := S8192x2) (s₁ := S8192x1) (s₂ := S8192x1) (1 : Fin 2) _ _ _
      (ValueIdx.ix2 k (1 : Fin 2) : S8192x2.Idx) rfl rfl (ValueIdx.ix2 k (0 : Fin 1) : S8192x1.Idx)
      (fun b => match b with | ⟨0, _⟩ => fun _ => rfl | ⟨1, _⟩ => fun h => absurd rfl h) rfl).trans ?_
    rw [val_main_v29_apply, val_main_v27_eq]

/-- An update lands on a position exactly when, on every axis, window start plus window coordinate is that
    position's coordinate. -/
theorem resultIdx?_eq_some_iff {s si u : Shape} {w : Nat} (d : ScatterDims s si u) (j : u.Idx) (idx : IVec si w) (i' : s.Idx) :
    d.resultIdx? j idx = some i' ↔ ∀ a, d.start j idx a + (d.window j a : Int) = ((i' a).val : Int) := by
  unfold ScatterDims.resultIdx?
  constructor
  · intro h a
    split at h
    · next hh =>
      have e := congrArg (fun f : s.Idx => (f a).val) (Option.some.inj h)
      have e' : (d.start j idx a + (d.window j a : Int)).toNat = (i' a).val := e
      have := hh a
      omega
    · cases h
  · intro h
    have hh : ∀ a, 0 ≤ d.start j idx a + (d.window j a : Int) ∧ d.start j idx a + (d.window j a : Int) < s.size a :=
      fun a => by rw [h a]; exact ⟨Int.natCast_nonneg _, by exact_mod_cast (i' a).isLt⟩
    rw [dif_pos hh]
    congr 1
    funext a
    apply Fin.ext
    show (d.start j idx a + (d.window j a : Int)).toNat = (i' a).val
    rw [h a]; exact Int.toNat_natCast _

/-- The k-th update lands on the diagonal position (k, k), and on no other. -/
theorem resultIdx?_diag (k i j : Fin 8192) :
    D.resultIdx? (ValueIdx.ix1 k) (val_main_v30 (F := Ideal)) = some (ValueIdx.ix2 i j) ↔ k = i ∧ k = j := by
  rw [resultIdx?_eq_some_iff]
  have hk : k.val < 8192 := k.isLt
  constructor
  · intro h
    have h0 := h (0 : Fin 2)
    have h1 := h (1 : Fin 2)
    rw [start_eq, window_eq, val_main_v30_eq, toInt_ofNat_small _ (by omega)] at h0 h1
    exact ⟨Fin.ext (by have : ((ValueIdx.ix2 i j : S8192x8192.Idx) 0).val = i.val := rfl; omega),
           Fin.ext (by have : ((ValueIdx.ix2 i j : S8192x8192.Idx) 1).val = j.val := rfl; omega)⟩
  · rintro ⟨rfl, rfl⟩ a
    rw [start_eq, window_eq, val_main_v30_eq, toInt_ofNat_small _ (by omega)]
    match a with
    | ⟨0, _⟩ => simp
    | ⟨1, _⟩ => simp

/-- The reference's positive mask with its diagonal zeroed: at (i, j) it is 0 when i = j and the mask's entry otherwise. -/
theorem val_main_v32_apply (x1 : (⟨S8192, .i32⟩ : BufTy).Contents (Elt Ideal)) (i j : Fin 8192) :
    val_main_v32 (F := Ideal) x1 (ValueIdx.ix2 i j)
      = if i = j then (0 : EReal) else val_main_v6 (F := Ideal) x1 (ValueIdx.ix2 i j) := by
  classical
  unfold val_main_v32
  have hupd : val_main_v31 (F := Ideal) = fun _ => (0 : EReal) := funext fun q => by
    rw [val_main_v31_apply, val_main_cst_5_apply]; exact Ideal.ofBits_zero_f32
  rw [hupd, Cert.Contrast.RowMath.scatter_set_const_idx]
  have hex : (∃ q : S8192.Idx, D.resultIdx? q (val_main_v30 (F := Ideal)) = some (ValueIdx.ix2 i j)) ↔ i = j := by
    constructor
    · rintro ⟨q, h⟩
      rw [ValueIdx.eq_ix1 q] at h
      obtain ⟨h1, h2⟩ := (resultIdx?_diag _ _ _).1 h
      exact h1.symm.trans h2
    · rintro rfl
      exact ⟨ValueIdx.ix1 i, (resultIdx?_diag _ _ _).2 ⟨rfl, rfl⟩⟩
  by_cases hij : i = j
  · rw [if_pos (hex.2 hij), if_pos hij]
  · rw [if_neg (fun h => hij (hex.1 h)), if_neg hij]

end Cert.Contrast.RefMask

end
-- ==== Proof.RefRow.lean ====
/-
  The reference program computes the specification's loss.

  Write X for the feature rows and lab for the labels. Step by step, at an index:
    the product of the features with their transpose at (i, j) is  sim i j ; dividing by the binary number nearest
    one tenth, 13421773 / 2²⁷, is multiplying by β = 2²⁷ / 13421773, so the scaled product is  logit i j ;
    for real features every logit is a real number, so each row has a real maximum  M i , and the shifted logit
    is  logit i j − M i ;
    the positive mask is 1 where lab i = lab j, the negative mask one less it; the row sum of the negatives is
    0 + Σ_k exp (logit i k − M i) · (1 − [lab i = lab k]) ;
    the log-probability  (logit i j − M i) − log (exp (logit i j − M i) + that row sum)  equals the specification's
    logit i j − log (exp (logit i j) + negSum i)  — a common real shift of a row's logits cancels;
    the positive mask with its diagonal zeroed, times the log-probability, is the log-probability where
    lab i = lab k and k ≠ i, and 0 elsewhere; its row sum is  num i , the mask's row sum is  den i ;
    the row loss is the constant times  num i / den i , and the result is  (0 + Σ_i rowLoss i) / 8192 .
-/
import proofs.«169283_j10625749090671_2_alg».proof.Proof.Gen.ReferenceIdeal.Read
import proofs.«169283_j10625749090671_2_alg».proof.Proof.Spec
import proofs.«169283_j10625749090671_2_alg».proof.Proof.RowMath
import proofs.«169283_j10625749090671_2_alg».proof.Proof.RefMask
import Idealize.ShloMosaic.PureOps.Ideal.Laws
import Idealize.ShloMosaic.Lib.ValueIdx

noncomputable section

namespace Cert.Contrast.RefRow

open Cert.ReferenceIdeal Cert.ReferenceIdeal.Gen Cert.ReferenceIdeal.Read Idealize.ShloMosaic

/-- The feature rows of the reference's first argument. -/
abbrev X (x0 : (⟨S8192x1x128, .f32⟩ : BufTy).Contents (Elt Ideal)) : Fin 8192 → Fin 128 → EReal :=
  fun j d => x0 (ValueIdx.ix3 j (0 : Fin 1) d)

/-- The labels of the reference's second argument. -/
abbrev lab (x1 : (⟨S8192, .i32⟩ : BufTy).Contents (Elt Ideal)) : Fin 8192 → BitVec 32 :=
  fun j => x1 (ValueIdx.ix1 j)

variable (x0 : (⟨S8192x1x128, .f32⟩ : BufTy).Contents (Elt Ideal)) (x1 : (⟨S8192, .i32⟩ : BufTy).Contents (Elt Ideal))

/-! ## The constants -/

/-- The binary number nearest one tenth is 13421773 / 2²⁷. -/
theorem ofBits_tenth : Ideal.ofBits .f32 0x3DCCCCCD#32 = ((13421773 / 134217728 : ℝ) : EReal) := by
  simp [Ideal.ofBits, Ideal.ieee, -EReal.coe_mul]; norm_num

/-- The word of 1.0 is 1. -/
theorem ofBits_one : Ideal.ofBits .f32 0x3F800000#32 = 1 := by
  simp [Ideal.ofBits, Ideal.ieee, -EReal.coe_mul]; norm_num

/-! ## The logits -/

/-- The reshaped features at (i, k) are row i, coordinate k. -/
theorem v0_at (i : Fin 8192) (k : Fin 128) :
    val_main_v0 (F := Ideal) x0 (ValueIdx.ix2 i k) = X x0 i k := by
  rw [val_main_v0_apply]
  refine congrArg x0 (funext fun a => Fin.ext ?_)
  have hi := i.isLt; have hk := k.isLt
  match a with
  | ⟨0, _⟩ => show (i.val * 128 + k.val) / 128 = i.val; omega
  | ⟨1, _⟩ => rfl
  | ⟨2, _⟩ => show (i.val * 128 + k.val) % 128 = k.val; omega

/-- The transposed features at (k, j) are row j, coordinate k. -/
theorem v9_at (k : Fin 128) (j : Fin 8192) :
    val_main_v9 (F := Ideal) x0 (ValueIdx.ix2 k j) = X x0 j k := by
  rw [val_main_v9_apply]
  exact v0_at x0 j k

/-- The product of the features with their transpose at (i, j) is the similarity of rows i and j. -/
theorem v10_at (i j : Fin 8192) :
    val_main_v10 (F := Ideal) x0 (ValueIdx.ix2 i j) = sim (X x0) i j := by
  rw [val_main_v10_apply]
  unfold sim
  refine Finset.sum_congr rfl fun k _ => ?_
  exact congrArg₂ (· * ·) (v0_at x0 i k) (v9_at x0 k j)

/-- Dividing by the binary tenth is multiplying by β. -/
theorem v12_at (i j : Fin 8192) :
    val_main_v12 (F := Ideal) x0 (ValueIdx.ix2 i j) = logit (X x0) i j := by
  rw [val_main_v12_apply, Ideal.hostDivf_def, v10_at, val_main_v11_apply, val_main_cst_0_apply, Ideal.ofBits_def,
    ofBits_tenth, Ideal.div_coe (by norm_num)]
  unfold logit beta
  norm_num

/-! ## Real features give real logits -/

/-- The logit of rows i and j for real features xr, as a real number. -/
def aR (xr : S8192x1x128.Idx → ℝ) (i j : Fin 8192) : ℝ :=
  (∑ d : Fin 128, xr (ValueIdx.ix3 i (0 : Fin 1) d) * xr (ValueIdx.ix3 j (0 : Fin 1) d)) * (134217728 / 13421773)

/-- With real features xr the logit of rows i and j is the real number aR xr i j. -/
theorem logit_coe (xr : S8192x1x128.Idx → ℝ) (hx : ∀ idx, x0 idx = (xr idx : EReal)) (i j : Fin 8192) :
    logit (X x0) i j = (aR xr i j : EReal) := by
  unfold logit sim beta aR
  simp only [hx]
  rw [RowMath.sum_mul_coe, ← EReal.coe_mul]

/-- With real features every scaled similarity is real, hence so is each row's maximum. -/
theorem rowMax_exists (xr : S8192x1x128.Idx → ℝ) (hx : ∀ idx, x0 idx = (xr idx : EReal)) :
    ∃ M : Fin 8192 → ℝ, ∀ i, val_main_v13 (F := Ideal) x0 (ValueIdx.ix1 i) = (M i : EReal) := by
  have h : ∀ idx, ∃ r : ℝ, val_main_v12 (F := Ideal) x0 idx = (r : EReal) := fun idx => by
    obtain ⟨i, j, rfl⟩ : ∃ i j : Fin 8192, idx = ValueIdx.ix2 i j := ⟨idx 0, idx 1, ValueIdx.eq_ix2 (n0 := 8192) (n1 := 8192) idx⟩
    exact ⟨_, (v12_at x0 i j).trans (logit_coe x0 xr hx i j)⟩
  exact ⟨fun i => (RefMask.val_main_v13_real x0 h i).choose, fun i => (RefMask.val_main_v13_real x0 h i).choose_spec⟩

/-- The shifted logit at (i, j): the logit less the maximum of row i. -/
theorem v16_at (i j : Fin 8192) :
    val_main_v16 (F := Ideal) x0 (ValueIdx.ix2 i j)
      = logit (X x0) i j - val_main_v13 (F := Ideal) x0 (ValueIdx.ix1 i) := by
  rw [val_main_v16_apply, Ideal.subf_def, v12_at, val_main_v15_apply, val_main_v14_apply]
  refine congrArg (fun t => _ - val_main_v13 (F := Ideal) x0 t) (funext fun a => ?_)
  match a with
  | ⟨0, _⟩ => rfl

/-! ## The label masks -/

theorem v3_at (i j : Fin 8192) : val_main_v3 (F := Ideal) x1 (ValueIdx.ix2 i j) = lab x1 i := by
  rw [val_main_v3_apply, val_main_v1_apply]
  refine congrArg x1 (funext fun a => Fin.ext ?_)
  match a with
  | ⟨0, _⟩ => show i.val * 1 + 0 = i.val; omega

/-- The labels spread along columns: at (i, j) the label of row j. -/
theorem v4_at (i j : Fin 8192) : val_main_v4 (F := Ideal) x1 (ValueIdx.ix2 i j) = lab x1 j := by
  rw [val_main_v4_apply, val_main_v2_apply, val_main_v1_apply]
  refine congrArg x1 (funext fun a => Fin.ext ?_)
  match a with
  | ⟨0, _⟩ => show j.val * 1 + 0 = j.val; omega

/-- The positive mask: 1 where the two rows carry one label, 0 elsewhere. -/
theorem v6_at (i j : Fin 8192) :
    val_main_v6 (F := Ideal) x1 (ValueIdx.ix2 i j) = if lab x1 i = lab x1 j then (1 : EReal) else 0 := by
  rw [val_main_v6_apply, val_main_v5_apply, v3_at, v4_at]
  show (((IntOp.cmpi .eq (lab x1 i) (lab x1 j)).toNat : ℝ) : EReal) = _
  by_cases h : lab x1 i = lab x1 j
  · rw [if_pos h, IntOp.cmpi_eq.2 h]; simp
  · rw [if_neg h, ValueIdx.eq_zero_of_ne_one (fun e => h (IntOp.cmpi_eq.1 e))]; simp

/-- The negative mask: one less the positive mask. -/
theorem v8_at (i j : Fin 8192) :
    val_main_v8 (F := Ideal) x1 (ValueIdx.ix2 i j) = (1 : EReal) - (if lab x1 i = lab x1 j then (1 : EReal) else 0) := by
  rw [val_main_v8_apply, Ideal.subf_def, val_main_v7_apply, val_main_cst_apply, Ideal.ofBits_def, ofBits_one, v6_at]

/-! ## The row sums of the negatives -/

/-- The sum over row i of the exponentials of the shifted logits at the negatives. -/
theorem v35_at (i : Fin 8192) :
    val_main_v35 (F := Ideal) x0 x1 (ValueIdx.ix1 i)
      = (0 : EReal) + ∑ k : Fin 8192, Ideal.exp (val_main_v16 (F := Ideal) x0 (ValueIdx.ix2 i k))
          * val_main_v8 (F := Ideal) x1 (ValueIdx.ix2 i k) := by
  rw [val_main_v35_apply, val_main_cst_6_apply, Ideal.ofBits_def, Ideal.ofBits_zero_f32]
  refine congrArg ((0 : EReal) + ·) (Finset.sum_congr rfl fun k _ => ?_)
  have e : idx_main_v35 (ValueIdx.ix1 i) k = ValueIdx.ix2 i k := funext fun a => by
    match a with
    | ⟨0, _⟩ => rfl
    | ⟨1, _⟩ => rfl
  rw [e, val_main_v34_apply, Ideal.mulf_def, val_main_v33_apply, Ideal.hostUnary_exp_def]

/-- The row sums spread along rows: at (i, j) the sum of row i. -/
theorem v37_at (i j : Fin 8192) :
    val_main_v37 (F := Ideal) x0 x1 (ValueIdx.ix2 i j) = val_main_v35 (F := Ideal) x0 x1 (ValueIdx.ix1 i) := by
  rw [val_main_v37_apply, val_main_v36_apply]
  refine congrArg (val_main_v35 (F := Ideal) x0 x1) (funext fun a => ?_)
  match a with
  | ⟨0, _⟩ => rfl

/-! ## The log-probabilities -/

/-- With real features the reference's log-probability at (i, j) is the specification's: subtracting the row
    maximum from every logit of the row changes nothing. -/
theorem v40_at (xr : S8192x1x128.Idx → ℝ) (hx : ∀ idx, x0 idx = (xr idx : EReal)) (i j : Fin 8192) :
    val_main_v40 (F := Ideal) x0 x1 (ValueIdx.ix2 i j) = logProb (X x0) (lab x1) i j := by
  obtain ⟨M, hM⟩ := rowMax_exists x0 xr hx
  rw [val_main_v40_apply, Ideal.subf_def, val_main_v39_apply, Ideal.hostUnary_log_def, val_main_v38_apply, Ideal.addf_def,
    val_main_v33_apply, Ideal.hostUnary_exp_def, v37_at, v35_at]
  simp only [v16_at, v8_at, hM, logit_coe x0 xr hx]
  unfold logProb negSum
  simp only [logit_coe x0 xr hx]
  exact RowMath.shifted_logProb (aR xr i) (M i) (fun k => lab x1 i = lab x1 k) j

/-! ## Numerator, denominator, row loss -/

/-- The diagonal-free positive mask times the log-probability. -/
theorem v41_at (xr : S8192x1x128.Idx → ℝ) (hx : ∀ idx, x0 idx = (xr idx : EReal)) (i k : Fin 8192) :
    val_main_v41 (F := Ideal) x0 x1 (ValueIdx.ix2 i k)
      = if lab x1 i = lab x1 k ∧ k ≠ i then logProb (X x0) (lab x1) i k else 0 := by
  rw [val_main_v41_apply, Ideal.mulf_def, RefMask.val_main_v32_apply, v6_at, v40_at x0 x1 xr hx]
  by_cases hik : i = k
  · rw [if_pos hik, zero_mul, if_neg (fun h => h.2 hik.symm)]
  · rw [if_neg hik]
    by_cases hl : lab x1 i = lab x1 k
    · rw [if_pos hl, one_mul, if_pos ⟨hl, fun h => hik h.symm⟩]
    · rw [if_neg hl, zero_mul, if_neg (fun h => hl h.1)]

/-- The numerator of row i: the sum of the log-probabilities over the other rows that carry its label. -/
theorem v42_at (xr : S8192x1x128.Idx → ℝ) (hx : ∀ idx, x0 idx = (xr idx : EReal)) (i : Fin 8192) :
    val_main_v42 (F := Ideal) x0 x1 (ValueIdx.ix1 i) = num (X x0) (lab x1) i := by
  rw [val_main_v42_apply, val_main_cst_7_apply, Ideal.ofBits_def, Ideal.ofBits_zero_f32, zero_add]
  unfold num
  refine Finset.sum_congr rfl fun k _ => ?_
  have e : idx_main_v42 (ValueIdx.ix1 i) k = ValueIdx.ix2 i k := funext fun a => by
    match a with
    | ⟨0, _⟩ => rfl
    | ⟨1, _⟩ => rfl
  rw [e, v41_at x0 x1 xr hx]

/-- The denominator of row i: the number of other rows that carry its label. -/
theorem v43_at (i : Fin 8192) :
    val_main_v43 (F := Ideal) x1 (ValueIdx.ix1 i) = den (lab x1) i := by
  rw [val_main_v43_apply, val_main_cst_8_apply, Ideal.ofBits_def, Ideal.ofBits_zero_f32, zero_add]
  unfold den
  refine Finset.sum_congr rfl fun k _ => ?_
  have e : idx_main_v43 (ValueIdx.ix1 i) k = ValueIdx.ix2 i k := funext fun a => by
    match a with
    | ⟨0, _⟩ => rfl
    | ⟨1, _⟩ => rfl
  rw [e, RefMask.val_main_v32_apply, v6_at]
  by_cases hik : i = k
  · rw [if_pos hik, if_neg (fun h => h.2 hik.symm)]
  · rw [if_neg hik]
    by_cases hl : lab x1 i = lab x1 k
    · rw [if_pos hl, if_pos ⟨hl, fun h => hik h.symm⟩]
    · rw [if_neg hl, if_neg (fun h => hl h.1)]

/-- The loss of row i. -/
theorem v46_at (xr : S8192x1x128.Idx → ℝ) (hx : ∀ idx, x0 idx = (xr idx : EReal)) (i : Fin 8192) :
    val_main_v46 (F := Ideal) x0 x1 (ValueIdx.ix1 i) = rowLoss (X x0) (lab x1) i := by
  rw [val_main_v46_apply, Ideal.mulf_def, val_main_v45_apply, val_main_cst_9_apply, Ideal.ofBits_def, val_main_v44_apply,
    Ideal.hostDivf_def, v42_at x0 x1 xr hx, v43_at]
  rfl

/-! ## The loss -/

/-- A sum over the one-axis index set is the sum over the axis. -/
theorem sum_idx1 (f : S8192.Idx → EReal) : ∑ j : S8192.Idx, f j = ∑ i : Fin 8192, f (ValueIdx.ix1 i) := by
  refine Fintype.sum_equiv ⟨fun j => j 0, fun i => ValueIdx.ix1 i, fun j => (ValueIdx.eq_ix1 j).symm, fun i => rfl⟩ _ _ ?_
  intro j
  exact congrArg f (ValueIdx.eq_ix1 (n := 8192) j)

/-- For real features the reference computes the specification's loss of its arguments. -/
theorem ref_value (hfin : ∀ idx, ∃ r : ℝ, x0 idx = (r : EReal)) :
    val_main_v48 (F := Ideal) x0 x1
      = fun _ => Cert.Contrast.loss (fun j d => x0 (ValueIdx.ix3 j (0 : Fin 1) d)) (fun j => x1 (ValueIdx.ix1 j)) := by
  choose xr hx using hfin
  funext i'
  rw [val_main_v48_apply, Ideal.hostDivf_def, val_main_v47_apply, val_main_cst_10_apply, Ideal.ofBits_def,
    Ideal.ofBits_zero_f32, val_main_cst_11_apply, Ideal.ofBits_def, sum_idx1]
  simp only [v46_at x0 x1 xr hx]
  rfl

end Cert.Contrast.RefRow

end
-- ==== Proof.Finite.lean ====
/-
  From the precondition to "every feature is a real number".

  The precondition is the predicate  all (|x| < +∞)  over the feature array, stated as: a conjunction
  (a fold by `and`, started at 1) of the one-bit comparisons  |x i| < +∞  over every index  i  equals 1.
  A fold by `and` that ends at 1 met only 1s, so each comparison holds:  max (x i) (−x i) < ⊤  in the
  extended reals.  That excludes  x i = ⊤  (then the maximum is ⊤) and  x i = ⊥  (then −x i = ⊤), so
  x i  is the image of a real number.
-/
import proofs.«169283_j10625749090671_2_alg».proof.Pre_finite_inputs
import Idealize.ShloMosaic.Lib.ReduceAll
import Idealize.ShloMosaic.PureOps.Ideal
import Idealize.ShloMosaic.Lib.ValueIdx

namespace Cert.Contrast.Finite

open Idealize.ShloMosaic

/-- The shape with no axes has exactly one index. -/
instance : Subsingleton Cert.Pre_finite_inputs.S_.Idx := ⟨fun _ _ => funext fun d => d.elim0⟩

/-- An extended real whose absolute value  max x (−x)  lies strictly below ⊤ is a real number. -/
theorem exists_real_of_abs_lt_top (x : EReal) (hx : max x (-x) < (⊤ : EReal)) : ∃ r : ℝ, x = (r : EReal) := by
  induction x using EReal.rec with
  | bot => simp at hx
  | coe r => exact ⟨r, rfl⟩
  | top => simp at hx

/-- If the predicate  all (|x0| < +∞)  evaluates to 1 on the feature array  x0 , then every entry of
    x0  is (the image in the extended reals of) a real number: the conjunction over all indices being 1
    gives  |x0 i| < ⊤  at each index  i , and an extended real of absolute value below ⊤ is neither ⊤ nor ⊥.
    The label array  x1  plays no part. -/
theorem finite_of_pre [Cert.Pre_finite_inputs.Facts]
    (x0 : FVec Ideal Cert.Pre_finite_inputs.S8192x1x128 .f32) (x1 : IVec Cert.Pre_finite_inputs.S8192 32)
    (h : Cert.Pre_finite_inputs.fn (F := Ideal) x0 x1 = fun _ => 1#1) :
    ∀ i, ∃ r : ℝ, x0 i = (r : EReal) := by
  intro i
  -- the predicate's single result is 1
  have h0 := congrFun h ValueIdx.ix0
  dsimp only [Cert.Pre_finite_inputs.fn] at h0
  -- so the comparison at index i is 1
  have hi := Host.reduce_andi_all _ _ _ _ _ h0 i
  -- which says |x0 i| < ⊤
  have hlt : max (x0 i) (-(x0 i)) < (⊤ : EReal) := by
    have e : Ideal.cmp .olt (max (x0 i) (-(x0 i))) (Ideal.ofBits .f32 0x7F800000#32) = 1#1 := hi
    have ht : Ideal.ofBits .f32 0x7F800000#32 = (⊤ : EReal) := by simp [Ideal.ofBits, Ideal.ieee]
    rw [ht] at e
    by_contra hn
    simp [Ideal.cmp, hn] at e
  exact exists_real_of_abs_lt_top _ hlt

/-- The same, with the real numbers collected into one array:  x0  is the entrywise image of a real array. -/
theorem exists_real_array_of_pre [Cert.Pre_finite_inputs.Facts]
    (x0 : FVec Ideal Cert.Pre_finite_inputs.S8192x1x128 .f32) (x1 : IVec Cert.Pre_finite_inputs.S8192 32)
    (h : Cert.Pre_finite_inputs.fn (F := Ideal) x0 x1 = fun _ => 1#1) :
    ∃ R : Cert.Pre_finite_inputs.S8192x1x128.Idx → ℝ, ∀ i, x0 i = (R i : EReal) :=
  ⟨fun i => (finite_of_pre x0 x1 h i).choose, fun i => (finite_of_pre x0 x1 h i).choose_spec⟩

end Cert.Contrast.Finite
-- ==== Proof.lean ====
/-
  A supervised contrastive loss over 8192 unit feature rows with integer labels, computed tile by tile on chip and,
  for comparison, as plain array arithmetic; the two agree over the extended reals for finite features.

  Both programs form, for every row i, the similarities of row i with every row scaled by the reciprocal temperature
  (the tiled program multiplies by the exact reciprocal of the binary number the other divides by), the sum of
  exp over the row's negatives, the log-probability logit − log (exp logit + negatives) of each positive other than
  i itself, their mean, times a fixed scale; the result is the mean over the rows. The array program first subtracts
  each row's maximum; with finite features that maximum is a finite real and the log-probability is unchanged by the
  shift: log (e^{−M}·Y) = −M + log Y for Y > 0. It removes the diagonal from the positives by a scatter of zeros at
  the positions (k, k); the tiled program by comparing the column number with the global row number. A row with no
  other positive gives the same quotient 0 / 0 in both.

  The tiled program's run is read off its frame: each of the 64 grid points writes the row losses of its 128 rows,
  the tiles cover the rows, and the lines after the launch sum them and divide by 8192.
-/
import proofs.«169283_j10625749090671_2_alg».proof.Defs
import proofs.«169283_j10625749090671_2_alg».proof.Proof.Gen.Kernel
import proofs.«169283_j10625749090671_2_alg».proof.Proof.Gen.Kernel.Frame
import proofs.«169283_j10625749090671_2_alg».proof.Proof.Gen.KernelIdeal
import proofs.«169283_j10625749090671_2_alg».proof.Proof.Gen.KernelIdeal.Frame
import proofs.«169283_j10625749090671_2_alg».proof.Proof.Gen.ReferenceIdeal
import proofs.«169283_j10625749090671_2_alg».proof.Proof.Gen.Pre_finite_inputs
import proofs.«169283_j10625749090671_2_alg».proof.Proof.Gen.ReferenceIdeal.Read
import proofs.«169283_j10625749090671_2_alg».proof.Proof.KerFlush
import proofs.«169283_j10625749090671_2_alg».proof.Proof.RefRow
import proofs.«169283_j10625749090671_2_alg».proof.Proof.Finite
import Idealize.ShloMosaic.Adequacy
import Idealize.ShloMosaic.Init

noncomputable section

namespace Cert.Proof

open Idealize.ShloMosaic Idealize.SL.Sem

/-- The array program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the reciprocal temperature its exact value. -/
theorem preserves : Cert.preserves_Kernel_KernelIdeal :=
  IdealRules.named_const.statement Cert.KernelIdeal.κ "inv_t" .f32 0x41200000#32 ((134217728 / 13421773 : ℝ) : EReal) rfl

/-- Both programs end at the loss of the launch's features and labels. -/
theorem algebraic : Cert.algebraic_KernelIdeal_ReferenceIdeal := by
  intro m ρ m' ρ' hpre hagree
  refine ⟨fun c => fun _ => Cert.Contrast.loss (Cert.Contrast.KerRun.feat m c) (Cert.Contrast.KerRun.labl m c),
    Cert.Contrast.KerFlush.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2]
  exact Cert.Contrast.RefRow.ref_value _ _ (Cert.Contrast.Finite.finite_of_pre _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
